-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3072x8192 : Shape := ⟨3, ![2, 3072, 8192]⟩
abbrev S2x8192x8192 : Shape := ⟨3, ![2, 8192, 8192]⟩
abbrev S_ : Shape := ⟨0, ![]⟩

class Facts : Prop where
  bcast_S_S2x3072x8192 : S_.BroadcastsInDim S2x3072x8192 (![] : Fin 0 → Fin S2x3072x8192.rank)
  reducesTo_S2x3072x8192_S_d0_1_2 : S2x3072x8192.ReducesTo [0, 1, 2] S_
  h_S_ : 0 < S_.numel
  bcast_S_S2x8192x8192 : S_.BroadcastsInDim S2x8192x8192 (![] : Fin 0 → Fin S2x8192x8192.rank)
  reducesTo_S2x8192x8192_S_d0_1_2 : S2x8192x8192.ReducesTo [0, 1, 2] S_

variable [Facts]

def fn {F : FTy → Type} [FloatOps F] (main_arg0 : FVec F S2x3072x8192 .f32) (main_arg1 : FVec F S2x8192x8192 .f32) : IVec S_ 1 :=
  let main_v0 : FVec F S2x3072x8192 .f32 := Host.absf main_arg0
  let main_cst : FVec F S_ .f32 := constant S_ .f32 0x7F800000#32
  let main_v1 : FVec F S2x3072x8192 .f32 := broadcastInDim S2x3072x8192 ![] bcast_S_S2x3072x8192 main_cst
  let main_v2 : IVec S2x3072x8192 1 := cmpf .olt main_v0 main_v1
  let main_c : IVec S_ 1 := constantI S_ 1 1#1
  let main_v3 : IVec S_ 1 := (fun x v => Host.reduce IntOp.andi x v reducesTo_S2x3072x8192_S_d0_1_2 h_S_) main_v2 main_c
  let main_v4 : FVec F S2x8192x8192 .f32 := Host.absf main_arg1
  let main_cst_0 : FVec F S_ .f32 := constant S_ .f32 0x7F800000#32
  let main_v5 : FVec F S2x8192x8192 .f32 := broadcastInDim S2x8192x8192 ![] bcast_S_S2x8192x8192 main_cst_0
  let main_v6 : IVec S2x8192x8192 1 := cmpf .olt main_v4 main_v5
  let main_c_1 : IVec S_ 1 := constantI S_ 1 1#1
  let main_v7 : IVec S_ 1 := (fun x v => Host.reduce IntOp.andi x v reducesTo_S2x8192x8192_S_d0_1_2 h_S_) main_v6 main_c_1
  let main_v8 : IVec S_ 1 := andi main_v3 main_v7
  main_v8
-- ==== Kernel.lean ====
abbrev S2x3072x8192 : Shape := ⟨3, ![2, 3072, 8192]⟩
abbrev S2x8192x8192 : Shape := ⟨3, ![2, 8192, 8192]⟩
abbrev S1x1024x512 : Shape := ⟨3, ![1, 1024, 512]⟩
abbrev S1x2048x512 : Shape := ⟨3, ![1, 2048, 512]⟩
abbrev S1x1024x2048 : Shape := ⟨3, ![1, 1024, 2048]⟩
abbrev S1024x2048 : Shape := ⟨2, ![1024, 2048]⟩
abbrev S1024x512 : Shape := ⟨2, ![1024, 512]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S2x3072x8192, .f32⟩
  | .hbm, ⟨1, _⟩ => ⟨S2x8192x8192, .f32⟩
  | .hbm, ⟨2, _⟩ => ⟨S2x3072x8192, .bf16⟩
  | .hbm, ⟨3, _⟩ => ⟨S2x8192x8192, .bf16⟩
  | .hbm, ⟨4, _⟩ => ⟨S2x3072x8192, .f32⟩
  | .local _ .vmem, ⟨0, _⟩ => ⟨S1x1024x512, .bf16⟩
  | .local _ .vmem, ⟨1, _⟩ => ⟨S1x1024x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1024x2048, .f32⟩
  | .local _ .vmem, ⟨5, _⟩ => ⟨S1x1024x2048, .f32⟩
  | .local _ .vmem, ⟨6, _⟩ => ⟨S1024x2048, .f32⟩
  | _, _ => ⟨S2x3072x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 3, 4, 16], ![false, false, false, false]⟩

def k0_cond2 (i : grid0.Coords) : BitVec 1 :=
  let arg3 : BitVec 32 := BitVec.ofNat 32 (i 3).val
  let c15_i32 : BitVec 32 := 15#32
  let v13 : BitVec 1 := Scalar.cmpi .eq arg3 c15_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

class Facts₀ : Prop where
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S2x3072x8192.size a
  hwx0_0 : ∀ i : grid0.Coords, EltTy.bits .bf16 = 32 ∨ (Rect.block (s := S2x3072x8192) S1x1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S2x8192x8192.size a
  hwx0_1 : ∀ i : grid0.Coords, EltTy.bits .bf16 = 32 ∨ (Rect.block (s := S2x8192x8192) S1x2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S2x3072x8192.size a
  hwx0_2 : ∀ i : grid0.Coords, EltTy.bits .f32 = 32 ∨ (Rect.block (s := S2x3072x8192) S1x1024x2048.size (cc0_transform_2 i) (hinb0_2 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x3072x8192 : Shape := ⟨3, ![2, 3072, 8192]⟩
abbrev S2x8192x8192 : Shape := ⟨3, ![2, 8192, 8192]⟩

abbrev nBuf : Space → Nat
  | .hbm => 3
  | .vmem => 0
  | .smem => 0
  | _ => 0

abbrev bufTy : (tb : Table) → Fin (tcTables nBuf tb) → BufTy
  | .hbm, ⟨0, _⟩ => ⟨S2x3072x8192, .f32⟩
  | .hbm, ⟨1, _⟩ => ⟨S2x8192x8192, .f32⟩
  | .hbm, ⟨2, _⟩ => ⟨S2x3072x8192, .f32⟩
  | _, _ => ⟨S2x3072x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S2x3072x8192_S2x8192x8192_S2x3072x8192_2_2_1_1_0_0_wf : DotDims.WF S2x3072x8192 S2x8192x8192 S2x3072x8192 [2] [2] [1] [1] [0] [0]

variable [Facts₀]

def dot_S2x3072x8192_S2x8192x8192_S2x3072x8192_2_2_1_1_0_0 : DotDims S2x3072x8192 S2x8192x8192 S2x3072x8192 where
  lhsContracting := [2]
  rhsContracting := [2]
  lhsNonContracting := [1]
  rhsNonContracting := [1]
  lhsBatch := [0]
  rhsBatch := [0]
  wf := dot_S2x3072x8192_S2x8192x8192_S2x3072x8192_2_2_1_1_0_0_wf

class Facts : Prop extends Facts₀ where

variable [Facts]
-- ==== Proof.Spec.lean ====
/-
  The function both programs compute, on the extended reals:

      out[b, d, n] = Σ_{r < 8192} x[b, d, r] · adj[b, n, r]      (b < 2, d < 3072, n < 8192)

  — for each batch entry the product of x[b] with the transpose of adj[b]. Beside it, an array read at natural-number
  coordinates (zero outside its extents): the form in which a tile of an array at a grid point, whose position is
  computed from the point's number, is written down without carrying bounds around.
-/
import Idealize.ShloMosaic.PureOps.Ideal
import Idealize.ShloMosaic.Lib.ValueIdx

noncomputable section

open Idealize.ShloMosaic Idealize.ShloMosaic.ValueIdx
open scoped BigOperators

namespace Cert.Spec

/-- A rank-3 array read at natural coordinates: its entry when the three are inside the extents, zero otherwise. -/
def at3 {n0 n1 n2 : ℕ} (x : (⟨3, ![n0, n1, n2]⟩ : Shape).Idx → EReal) (a b c : ℕ) : EReal :=
  if h : a < n0 ∧ b < n1 ∧ c < n2 then x (ix3 ⟨a, h.1⟩ ⟨b, h.2.1⟩ ⟨c, h.2.2⟩) else 0

theorem at3_of_lt {n0 n1 n2 : ℕ} (x : (⟨3, ![n0, n1, n2]⟩ : Shape).Idx → EReal) {a b c : ℕ}
    (ha : a < n0) (hb : b < n1) (hc : c < n2) : at3 x a b c = x (ix3 ⟨a, ha⟩ ⟨b, hb⟩ ⟨c, hc⟩) :=
  dif_pos ⟨ha, hb, hc⟩

/-- The batched product with the second factor transposed: out[b, d, n] = Σ_r x[b, d, r] · adj[b, n, r]. -/
def gcn (x : (⟨3, ![2, 3072, 8192]⟩ : Shape).Idx → EReal) (adj : (⟨3, ![2, 8192, 8192]⟩ : Shape).Idx → EReal) :
    (⟨3, ![2, 3072, 8192]⟩ : Shape).Idx → EReal :=
  fun i => ∑ r : Fin 8192, x (ix3 (i 0) (i 1) r) * adj (ix3 (i 0) (i 2) r)

/-- The same sum with the two arrays read at natural coordinates. -/
theorem gcn_apply (x : (⟨3, ![2, 3072, 8192]⟩ : Shape).Idx → EReal) (adj : (⟨3, ![2, 8192, 8192]⟩ : Shape).Idx → EReal)
    (i : (⟨3, ![2, 3072, 8192]⟩ : Shape).Idx) :
    gcn x adj i = ∑ r : Fin 8192, at3 x (i 0).val (i 1).val r.val * at3 adj (i 0).val (i 2).val r.val := by
  unfold gcn
  refine Finset.sum_congr rfl fun r _ => ?_
  rw [at3_of_lt x (i 0).isLt (i 1).isLt r.isLt, at3_of_lt adj (i 0).isLt (i 2).isLt r.isLt]
  rfl

end Cert.Spec

end
-- ==== Proof.TileProduct.lean ====
/-
  The body's arithmetic at an index, on the extended reals. With a = the x-tile [1, 1024, 512], b = the adj-tile
  [1, 2048, 512] and acc the accumulator [1024, 2048]:

      (the zero tile)[p, q]            = 0
      (accumulator step)[p, q]         = acc[p, q] + Σ_{k < 512} a[0, p, k] · b[0, q, k]
      (the output block)[0, p, q]      = acc[p, q]

  The step is the matrix unit's product into a zero accumulator — a plain sum over the contraction axis — added to
  acc; the changes of shape around it only drop or add the leading unit axis.
-/
import proofs.«124751_j47476568490654_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Tile

open Cert.KernelIdeal Cert.KernelIdeal.Gen

/-- The body's one matrix product: [1024, 512] by [2048, 512], both contracted on their last axis. -/
abbrev tileDot := dot_S1024x512_S2048x512_S1024x2048_1_1_0_0_n_n

/-- The reset stores zero everywhere. -/
theorem zero_tile_apply (j : S1024x2048.Idx) : k0_pay1 (F := Ideal) j = 0 := by
  unfold k0_pay1
  rw [shapeCast_self]
  exact Ideal.ofBits_zero_f32

/-- The left factor's row is the output's row, … -/
theorem lhs_row (j : S1024x2048.Idx) (k : tileDot.contr.Idx) : (tileDot.lhsIdx j k 0).val = (j 0).val := by
  unfold DotDims.lhsIdx
  rw [dif_neg (show ¬(0 : Fin S1024x512.rank) ∈ tileDot.lhsBatch by decide), dif_pos (show (0 : Fin S1024x512.rank) ∈ tileDot.lhsNonContracting by decide)]
  rfl

/-- … the right factor's row is the output's column (both factors are contracted on their last axis). -/
theorem rhs_row (j : S1024x2048.Idx) (k : tileDot.contr.Idx) : (tileDot.rhsIdx j k 0).val = (j 1).val := by
  unfold DotDims.rhsIdx
  rw [dif_neg (show ¬(0 : Fin S2048x512.rank) ∈ tileDot.rhsBatch by decide), dif_pos (show (0 : Fin S2048x512.rank) ∈ tileDot.rhsNonContracting by decide)]
  rfl

/-- One accumulation step at (p, q). -/
theorem acc_step_apply (v3 : FVec Ideal S1x1024x512 .bf16) (v5 : FVec Ideal S1x2048x512 .bf16) (v7 : FVec Ideal S1024x2048 .f32)
    (p : Fin 1024) (q : Fin 2048) :
    k0_pay2 v3 v5 v7 (ix2 p q) = v7 (ix2 p q) + ∑ k : Fin 512, v3 (ix3 0 p k) * v5 (ix3 0 q k) := by
  unfold k0_pay2
  rw [shapeCast_self, addf_apply]
  simp only [matmul]
  rw [Ideal.matmul_constant_zero_apply, ← Equiv.sum_comp (contrEquiv1 tileDot 512 rfl rfl).symm]
  refine congrArg (v7 (ix2 p q) + ·) (Finset.sum_congr rfl fun k _ => ?_)
  have hk := contrEquiv1_symm_val tileDot 512 rfl rfl k
  have el : tileDot.lhsIdx (ix2 p q) ((contrEquiv1 tileDot 512 rfl rfl).symm k) = ix2 p k := funext fun a => Fin.ext (by
    match a with
    | ⟨0, _⟩ => exact lhs_row _ _
    | ⟨1, _⟩ => exact (tileDot.lhsIdx_val_of_single rfl _ _).trans hk)
  have er : tileDot.rhsIdx (ix2 p q) ((contrEquiv1 tileDot 512 rfl rfl).symm k) = ix2 q k := funext fun a => Fin.ext (by
    match a with
    | ⟨0, _⟩ => exact rhs_row _ _
    | ⟨1, _⟩ => exact (tileDot.rhsIdx_val_of_single rfl _ _).trans hk)
  rw [el, er]
  have e3 : shapeCast S1024x512 v3 shapeCasts_S1x1024x512_S1024x512 (ix2 p k) = v3 (ix3 0 p k) :=
    (shapeCast_dropUnit_apply ![1024, 512] v3 _ (ix2 p k)).trans
      (congrArg v3 (funext fun a => by match a with | ⟨0, _⟩ => rfl | ⟨1, _⟩ => rfl | ⟨2, _⟩ => rfl))
  have e5 : shapeCast S2048x512 v5 shapeCasts_S1x2048x512_S2048x512 (ix2 q k) = v5 (ix3 0 q k) :=
    (shapeCast_dropUnit_apply ![2048, 512] v5 _ (ix2 q k)).trans
      (congrArg v5 (funext fun a => by match a with | ⟨0, _⟩ => rfl | ⟨1, _⟩ => rfl | ⟨2, _⟩ => rfl))
  rw [e3, e5]

/-- The copy into the output block only adds the leading unit axis. -/
theorem to_block_apply (v : FVec Ideal S1024x2048 .f32) (y : S1x1024x2048.Idx) :
    k0_pay3 v y = v (ix2 (y 1) (y 2)) := by
  unfold k0_pay3
  exact (shapeCast_addUnit_apply ![1024, 2048] v _ y).trans
    (congrArg v (funext fun a => by match a with | ⟨0, _⟩ => rfl | ⟨1, _⟩ => rfl))

end Cert.KernelIdeal.Tile

end
-- ==== Proof.Pieces.lean ====
/-
  What one grid point leaves behind, as values. The body keeps a [1024, 2048] accumulator in a scratch buffer that
  lives across the grid points. At a point with k = 0 it first stores the zero tile and then stores
  (accumulator + x-tile · adj-tileᵀ) over it; at the other points it stores (accumulator + x-tile · adj-tileᵀ) over
  what the point before left; at a point with k = 15 it also copies the accumulator into the output block. Each of
  these is one store covering its whole buffer, so the buffer afterwards is that store's value; a load that follows a
  covering store reads the stored value. The statements hold for any reading of the floats.
-/
import proofs.«124751_j47476568490654_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Carried

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point with 0 < k < 15: the accumulator ends at (what it held) + x-tile · adj-tileᵀ. -/
theorem scratch_B (c : Dev nD) (i : grid0.Coords) (arg4 : Memref sig .tc .vmem S1x1024x512 .bf16) (harg4 : arg4.IsWhole) (arg5 : Memref sig .tc .vmem S1x2048x512 .bf16) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : ¬cond0_1 i)
    (x0 : Vec F S1x1024x512 .bf16) (x1 : Vec F S1x2048x512 .bf16) (xs0 : Vec F S1024x2048 .f32) :
    sout0_B_0 c i arg4 harg4 arg5 harg5 arg6 harg6 arg7 harg7 hc0 hc1 x0 x1 xs0 = k0_pay2 x0 x1 xs0 := by
  unfold sout0_B_0
  rw [View.read_writes_eq_canon _ _ _ (scover0_B_0 c i arg4 harg4 arg5 harg5 arg6 harg6 arg7 harg7 hc0 hc1 x0 x1 xs0)]
  unfold kernelRun0_B
  dsimp only
  rw [View.canon_unit_zero hz2]
  simp only [View.readAt_eq_ld, harg4.read_unread, harg5.read_unread, harg7.read_unread,
    View.ld_unit_zero (S := S1x1024x512) hz3, View.ld_unit_zero (S := S1x2048x512) hz3, View.ld_unit_zero (S := S1024x2048) hz2]

/-- A point with k = 0: the accumulator ends at (the zero tile) + x-tile · adj-tileᵀ, whatever it held before —
    the second store's load of the accumulator reads the zero tile the first store wrote. -/
theorem scratch_A (c : Dev nD) (i : grid0.Coords) (arg4 : Memref sig .tc .vmem S1x1024x512 .bf16) (harg4 : arg4.IsWhole) (arg5 : Memref sig .tc .vmem S1x2048x512 .bf16) (harg5 : arg5.IsWhole) (arg6 : Memref sig .tc .vmem S1x1024x2048 .f32) (harg6 : arg6.IsWhole) (arg7 : Memref sig .tc .vmem S1024x2048 .f32) (harg7 : arg7.IsWhole) (hc0 : cond0_0 i) (hc1 : ¬cond0_1 i)
    (x0 : Vec F S1x1024x512 .bf16) (x1 : Vec F S1x2048x512 .bf16) :
    sout0_A_0 c i arg4 harg4 arg5 harg5 arg6 harg6 arg7 harg7 hc0 hc1 x0 x1 = k0_pay2 x0 x1 (k0_pay1 (F := F)) := by
  unfold sout0_A_0
  rw [View.read_writes_eq_canon _ _ _ (scover0_A_0 c i arg4 harg4 arg5 harg5 arg6 harg6 arg7 harg7 hc0 hc1 x0 x1)]
  unfold kernelRun0_A
  dsimp only
  sl_unfold_words
  rw [View.canon_cons_unit_zero (S := S1024x2048) hz2, View.readCov_unit_zero (S := S1024x2048) _ hz2]
  simp only [View.readAt_eq_ld, harg4.read_unread, harg5.read_unread,
    View.ld_unit_zero (S := S1x1024x512) hz3, View.ld_unit_zero (S := S1x2048x512) hz3, View.ld_unit_zero (S := S1024x2048) hz2]

/-- A point with k = 15: the accumulator ends as at the middle points, … -/
theorem scratch_C (c : Dev nD) (i : grid0.Coords) (arg4 : Memref sig .tc .vmem S1x1024x512 .bf16) (harg4 : arg4.IsWhole) (arg5 : Memref sig .tc .vmem S1x2048x512 .bf16) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x512 .bf16) (x1 : Vec F S1x2048x512 .bf16) (xs0 : Vec F S1024x2048 .f32) :
    sout0_C_0 c i arg4 harg4 arg5 harg5 arg6 harg6 arg7 harg7 hc0 hc1 x0 x1 xs0 = k0_pay2 x0 x1 xs0 := by
  unfold sout0_C_0
  rw [View.read_writes_eq_canon _ _ _ (scover0_C_0 c i arg4 harg4 arg5 harg5 arg6 harg6 arg7 harg7 hc0 hc1 x0 x1 xs0)]
  unfold kernelRun0_C
  dsimp only
  sl_unfold_words
  rw [View.canon_unit_zero hz2]
  simp only [View.readAt_eq_ld, harg4.read_unread, harg5.read_unread, harg7.read_unread,
    View.ld_unit_zero (S := S1x1024x512) hz3, View.ld_unit_zero (S := S1x2048x512) hz3, View.ld_unit_zero (S := S1024x2048) hz2]

/-- … and the output block is that final accumulator, viewed [1, 1024, 2048]: the copy's load of the accumulator
    reads what the store just before it wrote. -/
theorem out_C (c : Dev nD) (i : grid0.Coords) (arg4 : Memref sig .tc .vmem S1x1024x512 .bf16) (harg4 : arg4.IsWhole) (arg5 : Memref sig .tc .vmem S1x2048x512 .bf16) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x512 .bf16) (x1 : Vec F S1x2048x512 .bf16) (xs0 : Vec F S1024x2048 .f32) :
    out0_C_2 c i arg4 harg4 arg5 harg5 arg6 harg6 arg7 harg7 hc0 hc1 x0 x1 xs0 = k0_pay3 (k0_pay2 x0 x1 xs0) := by
  unfold out0_C_2
  rw [View.read_writes_eq_canon _ _ _ (cover0_C_2 c i arg4 harg4 arg5 harg5 arg6 harg6 arg7 harg7 hc0 hc1 x0 x1 xs0)]
  unfold kernelRun0_C
  dsimp only
  sl_unfold_words
  rw [View.canon_unit_zero hz3, View.readCov_unit_zero (S := S1024x2048) _ hz2]
  simp only [View.readAt_eq_ld, harg4.read_unread, harg5.read_unread, harg7.read_unread,
    View.ld_unit_zero (S := S1x1024x512) hz3, View.ld_unit_zero (S := S1x2048x512) hz3, View.ld_unit_zero (S := S1024x2048) hz2]

end Cert.KernelIdeal.Carried

end
-- ==== Proof.Blocks.lean ====
/-
  Which entries of the argument arrays a grid point's tiles hold, on the extended reals. The grid is
  (batch b < 2, row tile i < 3, column tile j < 4, contraction tile k < 16), numbered t = 192·b + 64·i + 16·j + k. The
  wrapper first rounds both arguments to bf16 — the identity on the extended reals — and the kernel then stages

      x-tile at t   : x  [b, 1024·i + p, 512·k + r]      (p < 1024, r < 512)
      adj-tile at t : adj[b, 2048·j + q, 512·k + r]      (q < 2048, r < 512)

  and writes the output block out[b, 1024·i + p, 2048·j + q] back.
-/
import proofs.«124751_j47476568490654_2_alg».proof.Proof.Gen.KernelIdeal.Value
import proofs.«124751_j47476568490654_2_alg».proof.Proof.Spec
import Idealize.ShloMosaic.Lib.Pipeline.Value
import Idealize.ShloMosaic.Lib.ValueIdx
import Idealize.ShloMosaic.PureOps.Ideal.Laws
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Blocks

open Cert.KernelIdeal Cert.KernelIdeal.Gen

open Cert.Spec

variable (m : (ℓ : Loc nD τ sig) → Buf (Elt Ideal) ℓ)

/-- The argument `x` as launched, as a function on its index set. -/
abbrev xArr (c : Dev nD) : S2x3072x8192.Idx → EReal := m ((c : Thread nD τ).loc main_arg0)
/-- The argument `adj` as launched. -/
abbrev adjArr (c : Dev nD) : S2x8192x8192.Idx → EReal := m ((c : Thread nD τ).loc main_arg1)

/-- What the kernel stages for `x` is `x` rounded to bf16, which is `x` itself on the extended reals. -/
theorem staged_x (c : Dev nD) (i : S2x3072x8192.Idx) : V m c main_v0 i = xArr m c i := by
  have e : @Eq (FVec Ideal S2x3072x8192 .bf16) (V m c main_v0)
      (truncf .bf16 (m ((c : Thread nD τ).loc main_arg0) : FVec Ideal S2x3072x8192 .f32) bitsLt_bf16_f32) := by
    dsimp only [Gen.V, Gen.hostOps0]; after_results
  exact congrFun e i

/-- Likewise for `adj`. -/
theorem staged_adj (c : Dev nD) (i : S2x8192x8192.Idx) : V m c main_v1 i = adjArr m c i := by
  have e : @Eq (FVec Ideal S2x8192x8192 .bf16) (V m c main_v1)
      (truncf .bf16 (m ((c : Thread nD τ).loc main_arg1) : FVec Ideal S2x8192x8192 .f32) bitsLt_bf16_f32) := by
    dsimp only [Gen.V, Gen.hostOps0]; after_results
  exact congrFun e i

/-- The three index maps at point t = 192·b + 64·i + 16·j + k: (b, i, k), (b, j, k) and (b, i, j). -/
theorem tile_index : ∀ t : Fin cfg0.N,
    win0_0.index t (0 : Fin 3) = t.val / 192 ∧ win0_0.index t (1 : Fin 3) = t.val / 64 % 3 ∧ win0_0.index t (2 : Fin 3) = t.val % 16
    ∧ win0_1.index t (0 : Fin 3) = t.val / 192 ∧ win0_1.index t (1 : Fin 3) = t.val / 16 % 4 ∧ win0_1.index t (2 : Fin 3) = t.val % 16
    ∧ win0_2.index t (0 : Fin 3) = t.val / 192 ∧ win0_2.index t (1 : Fin 3) = t.val / 64 % 3 ∧ win0_2.index t (2 : Fin 3) = t.val / 16 % 4 :=
  (by decide +kernel : ∀ t : Fin grid0.N, _)

/-- The x-tile at point t, entry (0, p, r), is x[b, 1024·i + p, 512·k + r]. -/
theorem x_tile_apply (c : Dev nD) (t : Fin cfg0.N) (y : S1x1024x512.Idx) :
    iblk m c 0 t y = at3 (xArr m c) (t.val / 192) (1024 * (t.val / 64 % 3) + (y 1).val) (512 * (t.val % 16) + (y 2).val) := by
  obtain ⟨e0, e1, e2, -⟩ := tile_index t
  have hN : t.val < 384 := lt_of_lt_of_eq t.isLt N_0
  have h0 : (y 0).val < 1 := (y 0).isLt
  have h1 : (y 1).val < 1024 := (y 1).isLt
  have h2 : (y 2).val < 512 := (y 2).isLt
  unfold iblk
  rw [View.read_apply]
  show V m c main_v0 (((cfg0.win 0).blk t).view.emb y) = _
  rw [staged_x, at3_of_lt (xArr m c) (by omega) (by omega) (by omega)]
  refine congrArg (xArr m c) (funext fun a => Fin.ext ?_)
  match a with
  | ⟨0, _⟩ => show win0_0.index t (0 : Fin 3) * 1 + 1 * (y 0).val = t.val / 192; omega
  | ⟨1, _⟩ => show win0_0.index t (1 : Fin 3) * 1024 + 1 * (y 1).val = 1024 * (t.val / 64 % 3) + (y 1).val; omega
  | ⟨2, _⟩ => show win0_0.index t (2 : Fin 3) * 512 + 1 * (y 2).val = 512 * (t.val % 16) + (y 2).val; omega

/-- The adj-tile at point t, entry (0, q, r), is adj[b, 2048·j + q, 512·k + r]. -/
theorem adj_tile_apply (c : Dev nD) (t : Fin cfg0.N) (y : S1x2048x512.Idx) :
    iblk m c 1 t y = at3 (adjArr m c) (t.val / 192) (2048 * (t.val / 16 % 4) + (y 1).val) (512 * (t.val % 16) + (y 2).val) := by
  obtain ⟨-, -, -, e0, e1, e2, -⟩ := tile_index t
  have hN : t.val < 384 := lt_of_lt_of_eq t.isLt N_0
  have h0 : (y 0).val < 1 := (y 0).isLt
  have h1 : (y 1).val < 2048 := (y 1).isLt
  have h2 : (y 2).val < 512 := (y 2).isLt
  unfold iblk
  rw [View.read_apply]
  show V m c main_v1 (((cfg0.win 1).blk t).view.emb y) = _
  rw [staged_adj, at3_of_lt (adjArr m c) (by omega) (by omega) (by omega)]
  refine congrArg (adjArr m c) (funext fun a => Fin.ext ?_)
  match a with
  | ⟨0, _⟩ => show win0_1.index t (0 : Fin 3) * 1 + 1 * (y 0).val = t.val / 192; omega
  | ⟨1, _⟩ => show win0_1.index t (1 : Fin 3) * 2048 + 1 * (y 1).val = 2048 * (t.val / 16 % 4) + (y 1).val; omega
  | ⟨2, _⟩ => show win0_1.index t (2 : Fin 3) * 512 + 1 * (y 2).val = 512 * (t.val % 16) + (y 2).val; omega

end Cert.KernelIdeal.Blocks

end
-- ==== Proof.LibTileSum.lean ====
/-
  A sum over a contraction axis of extent K·T taken tile by tile: the sum over the K tiles of the sums over the T
  positions inside a tile is the sum over the whole axis, position T·s + j of the axis being position j of tile s.
  Only commutativity and associativity of the addition are used, so this holds in any commutative additive monoid —
  the extended reals with their infinities included. It is the law between a product accumulated over K contraction
  tiles of width T and the one product over the whole contraction axis.
-/
import Idealize.ShloMosaic.Lib.ValueIdx

open scoped BigOperators

namespace Cert.TileSum

/-- The axis `Fin (K * T)` is K tiles of T positions each: for any `f` on the axis' positions (given on the
    naturals), summing `f (T * s + j)` over the tiles `s < K` and the positions `j < T` inside a tile is summing
    `f` over the axis. -/
theorem sum_tiles {β : Type*} [AddCommMonoid β] (K T : ℕ) (f : ℕ → β) :
    ∑ s ∈ Finset.range K, ∑ j : Fin T, f (T * s + j.val) = ∑ r : Fin (K * T), f r.val := by
  rw [Finset.sum_range, ← Equiv.sum_comp (finProdFinEquiv (m := K) (n := T)), Fintype.sum_prod_type]
  refine Finset.sum_congr rfl fun s _ => Finset.sum_congr rfl fun j _ => ?_
  exact congrArg f (by rw [finProdFinEquiv_apply_val]; exact Nat.add_comm _ _)

end Cert.TileSum
-- ==== Proof.Fold.lean ====
/-
  The accumulator after a run of contraction tiles, on the extended reals. Over the sixteen consecutive grid points
  t = 16·u, …, 16·u + 15 that share (b, i, j), the scratch accumulator is reset to zero at the first and gains that
  point's partial product at each:

      partial(t)[p, q] = Σ_{r < 512} x[b, 1024·i + p, 512·k + r] · adj[b, 2048·j + q, 512·k + r]      (k = t mod 16)

  so after the last of them it holds 0 + Σ_{k < 16} partial(16·u + k), and sixteen tiles of 512 positions are the whole
  contraction axis: the accumulator is Σ_{r < 8192} x[b, 1024·i + p, r] · adj[b, 2048·j + q, r]. Only the
  associativity and commutativity of the extended reals' addition are used: no entry needs to be finite.
-/
import proofs.«124751_j47476568490654_2_alg».proof.Proof.Gen.KernelIdeal.Value
import proofs.«124751_j47476568490654_2_alg».proof.Proof.Spec
import proofs.«124751_j47476568490654_2_alg».proof.Proof.LibTileSum
import proofs.«124751_j47476568490654_2_alg».proof.Proof.TileProduct
import proofs.«124751_j47476568490654_2_alg».proof.Proof.Pieces
import proofs.«124751_j47476568490654_2_alg».proof.Proof.Blocks
import Idealize.ShloMosaic.Lib.Pipeline.Value
import Idealize.ShloMosaic.Lib.ValueIdx
import Idealize.ShloMosaic.PureOps.Ideal.Laws
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Fold

open Cert.KernelIdeal Cert.KernelIdeal.Gen

open Cert.Spec Cert.KernelIdeal.Blocks Cert.KernelIdeal.Tile Cert.KernelIdeal.Carried

variable (m : (ℓ : Loc nD τ sig) → Buf (Elt Ideal) ℓ)

/-- Point n's partial product at (p, q), from the argument arrays. -/
def partialAt (X : S2x3072x8192.Idx → EReal) (A : S2x8192x8192.Idx → EReal) (n : ℕ) (i : S1024x2048.Idx) : EReal :=
  ∑ k : Fin 512, at3 X (n / 192) (1024 * (n / 64 % 3) + (i 0).val) (512 * (n % 16) + k.val)
    * at3 A (n / 192) (2048 * (n / 16 % 4) + (i 1).val) (512 * (n % 16) + k.val)

/-- One accumulation step on the tiles of point n adds that point's partial product. -/
theorem step_apply (c : Dev nD) (n : ℕ) (hb : n < cfg0.N) (acc : FVec Ideal S1024x2048 .f32) (i : S1024x2048.Idx) :
    k0_pay2 (iblk m c 0 ⟨n, hb⟩) (iblk m c 1 ⟨n, hb⟩) acc i = acc i + partialAt (xArr m c) (adjArr m c) n i := by
  obtain ⟨p, q, rfl⟩ : ∃ (p : Fin 1024) (q : Fin 2048), i = ix2 p q := ⟨i 0, i 1, eq_ix2 i⟩
  refine (acc_step_apply (iblk m c 0 ⟨n, hb⟩) (iblk m c 1 ⟨n, hb⟩) acc p q).trans ?_
  unfold partialAt
  refine congrArg (acc (ix2 p q) + ·) (Finset.sum_congr rfl fun k _ => ?_)
  exact congrArg₂ (· * ·) (x_tile_apply m c ⟨n, hb⟩ (ix3 0 p k)) (adj_tile_apply m c ⟨n, hb⟩ (ix3 0 q k))

/-- At the first point of a run the accumulator is reset and stepped once, whatever it held. -/
theorem scAt_first (c : Dev nD) (n : ℕ) (hb : n < cfg0.N) (acc : FVec Ideal S1024x2048 .f32) (h0 : n % 16 = 0) :
    Value.scAt0_0 m c n hb acc = k0_pay2 (iblk m c 0 ⟨n, hb⟩) (iblk m c 1 ⟨n, hb⟩) (k0_pay1 (F := Ideal)) := by
  unfold Value.scAt0_0
  rw [dif_pos h0, dif_neg (by omega)]
  exact scratch_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) _ _ (iblk m c 0 ⟨n, hb⟩) (iblk m c 1 ⟨n, hb⟩)

/-- At every later point of the run it is stepped from what the point before left. -/
theorem scAt_later (c : Dev nD) (n : ℕ) (hb : n < cfg0.N) (acc : FVec Ideal S1024x2048 .f32) (h0 : ¬n % 16 = 0) :
    Value.scAt0_0 m c n hb acc = k0_pay2 (iblk m c 0 ⟨n, hb⟩) (iblk m c 1 ⟨n, hb⟩) acc := by
  unfold Value.scAt0_0
  by_cases h1 : n % 16 = 15
  · rw [dif_neg h0, dif_pos h1]
    exact scratch_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) _ _ (iblk m c 0 ⟨n, hb⟩) (iblk m c 1 ⟨n, hb⟩) acc
  · rw [dif_neg h0, dif_neg h1]
    exact scratch_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) _ _ (iblk m c 0 ⟨n, hb⟩) (iblk m c 1 ⟨n, hb⟩) acc

/-- The run's fold from its first point b (a multiple of 16), j ≤ 15 steps on: zero plus the partial products of
    the points b, …, b + j. -/
theorem fold_apply (c : Dev nD) (b j : ℕ) (hb : b % 16 = 0) (hj : j ≤ 15) (h : b + j < cfg0.N) (i : S1024x2048.Idx) :
    Pipeline.accAt (fun n h => Value.scAt0_0 m c n h (VS0_0.read (Elt Ideal) VS0_0.junk)) (Value.scAt0_0 m c) b j h i
      = 0 + ∑ s ∈ Finset.range (j + 1), partialAt (xArr m c) (adjArr m c) (b + s) i :=
  Pipeline.accAt_add_apply (fun n h => Value.scAt0_0 m c n h (VS0_0.read (Elt Ideal) VS0_0.junk)) (Value.scAt0_0 m c)
    (fun _ => (0 : EReal)) (partialAt (xArr m c) (adjArr m c)) b 15
    (fun h i => by
      show Value.scAt0_0 m c b h _ i = _
      rw [scAt_first m c b h _ hb, step_apply, zero_tile_apply])
    (fun n h acc i hlt hle => by
      rw [scAt_later m c n h acc (by omega), step_apply])
    j hj h i

/-- Sixteen tiles of 512 positions are the contraction axis of 8192. -/
theorem sum_16x512 {β : Type*} [AddCommMonoid β] (f : ℕ → β) :
    ∑ s ∈ Finset.range 16, ∑ j : Fin 512, f (512 * s + j.val) = ∑ r : Fin 8192, f r.val :=
  Cert.TileSum.sum_tiles 16 512 f

/-- After the last point of a run (t mod 16 = 15) the accumulator holds the whole contraction at this point's rows
    of x and of adj. -/
theorem acc_at_last (c : Dev nD) (t : Fin cfg0.N) (h1 : t.val % 16 = 15) (i : S1024x2048.Idx) :
    (outsAt0 m c t.val t.isLt).2 i
      = ∑ r : Fin 8192, at3 (xArr m c) (t.val / 192) (1024 * (t.val / 64 % 3) + (i 0).val) r.val
          * at3 (adjArr m c) (t.val / 192) (2048 * (t.val / 16 % 4) + (i 1).val) r.val := by
  rw [Value.soutsAt0_0_eq, fold_apply m c (16 * (t.val / 16)) (t.val % 16) (by omega) (by omega), zero_add, h1,
    ← sum_16x512 (fun r => at3 (xArr m c) (t.val / 192) (1024 * (t.val / 64 % 3) + (i 0).val) r
          * at3 (adjArr m c) (t.val / 192) (2048 * (t.val / 16 % 4) + (i 1).val) r)]
  refine Finset.sum_congr rfl fun s hs => ?_
  have hs' : s < 16 := Finset.mem_range.mp hs
  unfold partialAt
  refine Finset.sum_congr rfl fun k _ => ?_
  have a1 : (16 * (t.val / 16) + s) / 192 = t.val / 192 := by omega
  have a2 : (16 * (t.val / 16) + s) / 64 % 3 = t.val / 64 % 3 := by omega
  have a3 : (16 * (t.val / 16) + s) / 16 % 4 = t.val / 16 % 4 := by omega
  have a4 : (16 * (t.val / 16) + s) % 16 = s := by omega
  rw [a1, a2, a3, a4]

end Cert.KernelIdeal.Fold

end
-- ==== Proof.Final.lean ====
/-
  The kernel's result array after the run, on the extended reals. The output block of (b, i, j) is written back once,
  after the run's last contraction tile (t mod 16 = 15), and then holds the accumulator: the whole contraction
  Σ_r x[b, 1024·i + p, r] · adj[b, 2048·j + q, r] at (p, q) — the block of
  out[b, d, n] = Σ_r x[b, d, r] · adj[b, n, r] at rows 1024·i.., columns 2048·j... The 24 blocks tile the [2, 3072, 8192]
  array, so the array ends holding that function everywhere.
-/
import proofs.«124751_j47476568490654_2_alg».proof.Proof.Gen.KernelIdeal.Value
import proofs.«124751_j47476568490654_2_alg».proof.Proof.Spec
import proofs.«124751_j47476568490654_2_alg».proof.Proof.TileProduct
import proofs.«124751_j47476568490654_2_alg».proof.Proof.Pieces
import proofs.«124751_j47476568490654_2_alg».proof.Proof.Blocks
import proofs.«124751_j47476568490654_2_alg».proof.Proof.Fold
import Idealize.ShloMosaic.Lib.Pipeline.Value
import Idealize.ShloMosaic.Lib.ValueIdx
import Idealize.ShloMosaic.PureOps.Ideal.Laws
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Final

open Cert.KernelIdeal Cert.KernelIdeal.Gen

open Cert.Spec Cert.KernelIdeal.Blocks Cert.KernelIdeal.Tile Cert.KernelIdeal.Carried Cert.KernelIdeal.Fold

variable (m : (ℓ : Loc nD τ sig) → Buf (Elt Ideal) ℓ) (ρ : Dev nD → PrngReg)

/-- At the last point of a run the output block is the accumulator that point leaves, viewed [1, 1024, 2048]. -/
theorem block_at_last (c : Dev nD) (t : Fin cfg0.N) (h0 : ¬t.val % 16 = 0) (h1 : t.val % 16 = 15) :
    (outsAt0 m c t.val t.isLt).1 = k0_pay3 ((outsAt0 m c t.val t.isLt).2) := by
  rw [outsAt0_C m c t h0 h1]
  dsimp only
  rw [out_C, scratch_C]

/-- The function the result array ends holding. -/
abbrev result (c : Dev nD) : S2x3072x8192.Idx → EReal := gcn (xArr m c) (adjArr m c)

/-- What a point that writes back writes is its block of `result`. -/
theorem flushed_eq (c : Dev nD) (t : Fin cfg0.N) (hf : (cfg0.win 2).flush t = true) :
    (dats m 0 c).flushed 2 t = ((cfg0.win 2).blk t).view.read (Elt Ideal) (result m c) := by
  have h1 : t.val % 16 = 15 := (flush0_2 t).mp hf
  have h0 : ¬t.val % 16 = 0 := by omega
  obtain ⟨-, -, -, -, -, -, e0, e1, e2⟩ := tile_index t
  rw [Value.flushed2, block_at_last m c t h0 h1]
  refine funext fun (j : S1x1024x2048.Idx) => ?_
  show k0_pay3 ((outsAt0 m c t.val t.isLt).2) j = gcn (xArr m c) (adjArr m c) (((cfg0.win 2).blk t).view.emb j)
  have hj0 : (j 0).val < 1 := (j 0).isLt
  have E0 : ((((cfg0.win 2).blk t).view.emb j) 0).val = t.val / 192 := by
    show win0_2.index t (0 : Fin 3) * 1 + 1 * (j 0).val = _; omega
  have E1 : ((((cfg0.win 2).blk t).view.emb j) 1).val = 1024 * (t.val / 64 % 3) + (j 1).val := by
    show win0_2.index t (1 : Fin 3) * 1024 + 1 * (j 1).val = _; omega
  have E2 : ((((cfg0.win 2).blk t).view.emb j) 2).val = 2048 * (t.val / 16 % 4) + (j 2).val := by
    show win0_2.index t (2 : Fin 3) * 2048 + 1 * (j 2).val = _; omega
  rw [to_block_apply, acc_at_last m c t h1, gcn_apply, E0, E1, E2]

/-- An index of the array is in point t's block iff each coordinate is in the block's range on its axis. -/
theorem mem_blk (t : Fin cfg0.N) (i : S2x3072x8192.Idx) :
    i ∈ ((cfg0.win 2).blk t).view.set ↔ ∀ a : Fin 3, win0_2.index t a * S1x1024x2048.size a ≤ (i a).val ∧ (i a).val < win0_2.index t a * S1x1024x2048.size a + S1x1024x2048.size a := by
  show i ∈ ((View.whole main_v2).slice (win0_2.rect t)).set ↔ _
  rw [View.set_slice_whole, Rect.mem_set_unit]
  exact Iff.rfl

/-- Every index (b, d, n) lies in the block written back at the last point of the run of (b, d / 1024, n / 2048). -/
theorem cover (i : S2x3072x8192.Idx) :
    ∃ t : Fin cfg0.N, (cfg0.win 2).flush t = true ∧ i ∈ ((cfg0.win 2).blk t).view.set := by
  have hi0 : (i 0).val < 2 := (i 0).isLt
  have hi1 : (i 1).val < 3072 := (i 1).isLt
  have hi2 : (i 2).val < 8192 := (i 2).isLt
  have hN : cfg0.N = 384 := N_0
  let t : Fin cfg0.N := ⟨192 * (i 0).val + 64 * ((i 1).val / 1024) + 16 * ((i 2).val / 2048) + 15, by rw [hN]; omega⟩
  have ht : t.val = 192 * (i 0).val + 64 * ((i 1).val / 1024) + 16 * ((i 2).val / 2048) + 15 := rfl
  obtain ⟨-, -, -, -, -, -, e0, e1, e2⟩ := tile_index t
  refine ⟨t, (flush0_2 t).mpr (by omega), ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 2048 ≤ (i 2).val ∧ (i 2).val < win0_2.index t (2 : Fin 3) * 2048 + 2048; omega

/-- So after the run the result array holds `result`. -/
theorem final (c : Dev nD) : (dats m 0 c).arrAt 2 cfg0.N = result m c :=
  (dats m 0 c).arrAt_eq_of_cover 2 (result m c) (fun t hf => flushed_eq m c t hf) cover

/-- The kernel's run, read: every weakly fair execution ends with the result array at `result` of the arguments as
    launched, and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Final

end
-- ==== Proof.Reference.lean ====
/-
  The reference, on the extended reals: its one operation, the batched contraction of x and adj over their last axes,
  is out[b, d, n] = Σ_r x[b, d, r] · adj[b, n, r] entry by entry.
-/
import proofs.«124751_j47476568490654_2_alg».proof.Proof.Gen.ReferenceIdeal.Read
import proofs.«124751_j47476568490654_2_alg».proof.Proof.Spec

noncomputable section

open Idealize.ShloMosaic Idealize.ShloMosaic.ValueIdx
open scoped BigOperators

namespace Cert.ReferenceIdeal.RefValue

open Cert.ReferenceIdeal Cert.ReferenceIdeal.Read Cert.Spec

/-- The reference's result term is the specification. -/
theorem result_eq (x : S2x3072x8192.Idx → EReal) (adj : S2x8192x8192.Idx → EReal) :
    val_main_v0 (F := Ideal) x adj = gcn x adj := by
  funext i
  rw [val_main_v0_apply]
  unfold gcn
  refine Finset.sum_congr rfl fun k _ => ?_
  have el : lidx_main_v0 i k = ix3 (i 0) (i 1) k :=
    funext fun a => Fin.ext (by match a with | ⟨0, _⟩ => rfl | ⟨1, _⟩ => rfl | ⟨2, _⟩ => rfl)
  have er : ridx_main_v0 i k = ix3 (i 0) (i 2) k :=
    funext fun a => Fin.ext (by match a with | ⟨0, _⟩ => rfl | ⟨1, _⟩ => rfl | ⟨2, _⟩ => rfl)
  rw [el, er]
  rfl

end Cert.ReferenceIdeal.RefValue

end
-- ==== Proof.lean ====
/-
  out[b, d, n] = Σ_r x[b, d, r] · adj[b, n, r]  (x : [2, 3072, 8192], adj : [2, 8192, 8192]), computed two ways.

  The kernel rounds both arguments to bf16 and walks a grid (b, row tile i, column tile j, contraction tile k): at each
  point it multiplies a [1024, 512] tile of x[b] by the transpose of a [2048, 512] tile of adj[b] on the matrix unit
  and adds the product into a [1024, 2048] accumulator that lives across the sixteen k's — zeroed at k = 0, copied
  into the output block at k = 15. The reference is one batched contraction over the last axes.

  On the extended reals the rounding is the identity and every product and sum is exact, so the accumulator after
  k = 15 is 0 + Σ_{k<16} Σ_{r<512} x[b, 1024·i + p, 512·k + r] · adj[b, 2048·j + q, 512·k + r], which is the reference's
  Σ_{r<8192} x[b, 1024·i + p, r] · adj[b, 2048·j + q, r] regrouped. The regrouping uses only that the addition is
  commutative and associative, which holds with infinite entries too, so the finiteness of the inputs is never used.

  The three frames are the generated ones (the reference's is its generated run with the result dropped); the
  idealization rewrote nothing, so `preserves` is `True`; `algebraic` sets the kernel's run, read in Proof/Final.lean,
  beside the reference's generated run, read in Proof/Reference.lean, at the same function `Cert.Spec.gcn`.
-/
import proofs.«124751_j47476568490654_2_alg».proof.Defs
import proofs.«124751_j47476568490654_2_alg».proof.Proof.Gen.Kernel
import proofs.«124751_j47476568490654_2_alg».proof.Proof.Gen.Kernel.Skeleton
import proofs.«124751_j47476568490654_2_alg».proof.Proof.Gen.Kernel.Launch
import proofs.«124751_j47476568490654_2_alg».proof.Proof.Gen.Kernel.Points
import proofs.«124751_j47476568490654_2_alg».proof.Proof.Gen.Kernel.Frame
import proofs.«124751_j47476568490654_2_alg».proof.Proof.Gen.KernelIdeal
import proofs.«124751_j47476568490654_2_alg».proof.Proof.Gen.KernelIdeal.Skeleton
import proofs.«124751_j47476568490654_2_alg».proof.Proof.Gen.KernelIdeal.Launch
import proofs.«124751_j47476568490654_2_alg».proof.Proof.Gen.KernelIdeal.Points
import proofs.«124751_j47476568490654_2_alg».proof.Proof.Gen.KernelIdeal.Frame
import proofs.«124751_j47476568490654_2_alg».proof.Proof.Gen.ReferenceIdeal
import proofs.«124751_j47476568490654_2_alg».proof.Proof.Gen.Pre_finite_inputs
import proofs.«124751_j47476568490654_2_alg».proof.Proof.Gen.KernelIdeal.Value
import proofs.«124751_j47476568490654_2_alg».proof.Proof.Gen.ReferenceIdeal.Run
import proofs.«124751_j47476568490654_2_alg».proof.Proof.Gen.ReferenceIdeal.Read
import proofs.«124751_j47476568490654_2_alg».proof.Proof.Final
import proofs.«124751_j47476568490654_2_alg».proof.Proof.Reference
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `gcn` of arguments that agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
